-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S64 .f32) (main_arg5 : FVec F S800000 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x512 .f32) (main_arg1 : FVec F S512x256 .f32) (main_arg2 : FVec F S256 .f32) (main_arg3 : FVec F S256x64 .f32) (main_arg4 : FVec F S64 .f32) (main_arg5 : FVec F S800000 .f32) (main_arg6 : IVec S800000 32) (main_arg7 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 45
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x1, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64, .f32⟩
  | .hbm, ⟨44, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x1, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel program's run with its result named.

  The program is three launches with two stretches of host operations between them. Every weakly fair execution
  terminates without a fault; the buffers then hold the contents of the last boundary of the fold through the
  program: the launch memory, each launch's arrays at what its write-backs leave, each host stretch applied.
  Read at the result buffer, that boundary is the third launch's output array after all its write-backs; read
  at an argument, it is the argument as launched. The statement is for any float instance.
-/
import proofs.«152284_j84301618085975_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the third
    launch's output array after its last write-back, entered from the contents the second host stretch leaves; the
    arguments end as launched. -/
theorem run_result : θ_run defs (onTc (τ := τ) (main (F := F))) ⟨m, fun _ => 0, ρ⟩ (fun r => ∀ c : Dev nD,
      r.2.mem ((c.tc : Thread nD τ).loc main_v30) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v30 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.Spec.lean ====
/-
  The three dense stages of a two-layer graph convolution, entry by entry, over the extended reals.

  A layer of the network aggregates rows of a matrix along the edges of a graph (a gather by source node, a scale
  by the edge weight, a sum into the destination node); between the aggregations stand three dense computations,
  each a function of whole matrices that acts row by row:
  • `product l r`: the matrix product, entry (p, g) the sum over k of l(p, k) · r(k, g);
  • `hidden h b w`: the bias row b added to every row of h, the result rectified (its maximum with zero), then
    multiplied by w: entry (p, g) is the sum over k of max(h(p, k) + b(0, k), 0) · w(k, g);
  • `logSoftmax l b`: the bias row b added to every row of l, then each row z replaced by
    z − max z − log Σ exp(z − max z), the maximum taken from −∞.
  Row p of each result depends on row p of the first operand only, so a block of rows of the result is the same
  function of the same block of rows of that operand: this is what lets a launch compute the result block by block.
  The two float words that occur (zero and −∞) are kept as words: both programs carry the same ones.
-/
import Idealize.ShloMosaic.PureOps.Ideal
import Idealize.ShloMosaic.Lib.ValueIdx

noncomputable section

namespace Cert.GraphConv

open Idealize.ShloMosaic Idealize.ShloMosaic.ValueIdx

/-- The row coordinate of a matrix index, as a number below the row count. -/
abbrev rowOf {M N : ℕ} (i : (⟨2, ![M, N]⟩ : Shape).Idx) : Fin M := ⟨(i 0).val, idx2_lt0 i⟩
/-- The column coordinate of a matrix index, as a number below the column count. -/
abbrev colOf {M N : ℕ} (i : (⟨2, ![M, N]⟩ : Shape).Idx) : Fin N := ⟨(i 1).val, idx2_lt1 i⟩

/-- Entry (p, g) of the product of an [M, K] and a [K, N] matrix. -/
def productAt {M K N : ℕ} (l : (⟨2, ![M, K]⟩ : Shape).Idx → EReal) (r : (⟨2, ![K, N]⟩ : Shape).Idx → EReal)
    (p : Fin M) (g : Fin N) : EReal :=
  ∑ k : Fin K, l (ix2 p k) * r (ix2 k g)

/-- The matrix product. -/
def product {M K N : ℕ} (l : (⟨2, ![M, K]⟩ : Shape).Idx → EReal) (r : (⟨2, ![K, N]⟩ : Shape).Idx → EReal) :
    (⟨2, ![M, N]⟩ : Shape).Idx → EReal :=
  fun i => productAt l r (rowOf i) (colOf i)

/-- Row p of the product depends on row p of the left operand only: equal rows give equal entries. -/
theorem productAt_congr {M M' K N : ℕ} (l : (⟨2, ![M, K]⟩ : Shape).Idx → EReal) (l' : (⟨2, ![M', K]⟩ : Shape).Idx → EReal)
    (r r' : (⟨2, ![K, N]⟩ : Shape).Idx → EReal) (p : Fin M) (p' : Fin M') (g : Fin N)
    (hl : ∀ k, l (ix2 p k) = l' (ix2 p' k)) (hr : ∀ k, r (ix2 k g) = r' (ix2 k g)) :
    productAt l r p g = productAt l' r' p' g := by
  unfold productAt
  exact Finset.sum_congr rfl fun k _ => by rw [hl k, hr k]

theorem product_ix2 {M K N : ℕ} (l : (⟨2, ![M, K]⟩ : Shape).Idx → EReal) (r : (⟨2, ![K, N]⟩ : Shape).Idx → EReal)
    (p : Fin M) (g : Fin N) : product l r (ix2 p g) = productAt l r p g := rfl

/-- Entry (p, k) of the hidden activation: the bias row added, the maximum with zero taken. -/
def activationAt {M K : ℕ} (h : (⟨2, ![M, K]⟩ : Shape).Idx → EReal) (b : (⟨2, ![1, K]⟩ : Shape).Idx → EReal)
    (p : Fin M) (k : Fin K) : EReal :=
  max (h (ix2 p k) + b (ix2 (0 : Fin 1) k)) (Ideal.ofBits .f32 0x00000000#32)

/-- Entry (p, g) of the hidden layer's product: the activation's row p against column g of the weights. -/
def hiddenAt {M K N : ℕ} (h : (⟨2, ![M, K]⟩ : Shape).Idx → EReal) (b : (⟨2, ![1, K]⟩ : Shape).Idx → EReal)
    (w : (⟨2, ![K, N]⟩ : Shape).Idx → EReal) (p : Fin M) (g : Fin N) : EReal :=
  ∑ k : Fin K, activationAt h b p k * w (ix2 k g)

/-- Row p of the hidden layer depends on row p of its first operand only. -/
theorem hiddenAt_congr {M M' K N : ℕ} (h : (⟨2, ![M, K]⟩ : Shape).Idx → EReal) (h' : (⟨2, ![M', K]⟩ : Shape).Idx → EReal)
    (b b' : (⟨2, ![1, K]⟩ : Shape).Idx → EReal) (w w' : (⟨2, ![K, N]⟩ : Shape).Idx → EReal) (p : Fin M) (p' : Fin M') (g : Fin N)
    (hh : ∀ k, h (ix2 p k) = h' (ix2 p' k)) (hb : ∀ k, b (ix2 (0 : Fin 1) k) = b' (ix2 (0 : Fin 1) k))
    (hw : ∀ k, w (ix2 k g) = w' (ix2 k g)) :
    hiddenAt h b w p g = hiddenAt h' b' w' p' g := by
  unfold hiddenAt activationAt
  exact Finset.sum_congr rfl fun k _ => by rw [hh k, hb k, hw k]

/-- The hidden layer: bias, rectifier, product with the weights. -/
def hidden {M K N : ℕ} (h : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  fun i => hiddenAt h b w (rowOf i) (colOf i)

theorem hidden_ix2 {M K N : ℕ} (h : (⟨2, ![M, K]⟩ : Shape).Idx → EReal) (b : (⟨2, ![1, K]⟩ : Shape).Idx → EReal)
    (w : (⟨2, ![K, N]⟩ : Shape).Idx → EReal) (p : Fin M) (g : Fin N) : hidden h b w (ix2 p g) = hiddenAt h b w p g := rfl

/-- Entry (p, q) of the logits: the bias row added. -/
def logitAt {M N : ℕ} (l : (⟨2, ![M, N]⟩ : Shape).Idx → EReal) (b : (⟨2, ![1, N]⟩ : Shape).Idx → EReal)
    (p : Fin M) (q : Fin N) : EReal :=
  l (ix2 p q) + b (ix2 (0 : Fin 1) q)

/-- The maximum of row p of the logits, taken from −∞. -/
def rowMaxAt {M N : ℕ} (l : (⟨2, ![M, N]⟩ : Shape).Idx → EReal) (b : (⟨2, ![1, N]⟩ : Shape).Idx → EReal)
    (p : Fin M) : EReal :=
  (Finset.univ : Finset (Fin N)).fold max (Ideal.ofBits .f32 0xFF800000#32) (fun q => logitAt l b p q)

/-- Entry (p, q) of the logits with the row's maximum subtracted. -/
def shiftedAt {M N : ℕ} (l : (⟨2, ![M, N]⟩ : Shape).Idx → EReal) (b : (⟨2, ![1, N]⟩ : Shape).Idx → EReal)
    (p : Fin M) (q : Fin N) : EReal :=
  logitAt l b p q - rowMaxAt l b p

/-- Entry (p, g) of the row-wise log-softmax of the logits. -/
def logSoftmaxAt {M N : ℕ} (l : (⟨2, ![M, N]⟩ : Shape).Idx → EReal) (b : (⟨2, ![1, N]⟩ : Shape).Idx → EReal)
    (p : Fin M) (g : Fin N) : EReal :=
  shiftedAt l b p g - Ideal.log (∑ q : Fin N, Ideal.exp (shiftedAt l b p q))

/-- Row p of the output layer depends on row p of its first operand only. -/
theorem logSoftmaxAt_congr {M M' N : ℕ} (l : (⟨2, ![M, N]⟩ : Shape).Idx → EReal) (l' : (⟨2, ![M', N]⟩ : Shape).Idx → EReal)
    (b b' : (⟨2, ![1, N]⟩ : Shape).Idx → EReal) (p : Fin M) (p' : Fin M') (g : Fin N)
    (hl : ∀ q, l (ix2 p q) = l' (ix2 p' q)) (hb : ∀ q, b (ix2 (0 : Fin 1) q) = b' (ix2 (0 : Fin 1) q)) :
    logSoftmaxAt l b p g = logSoftmaxAt l' b' p' g := by
  have hz : (fun q => logitAt l b p q) = fun q => logitAt l' b' p' q := funext fun q => by
    unfold logitAt; rw [hl q, hb q]
  have hm : rowMaxAt l b p = rowMaxAt l' b' p' := by unfold rowMaxAt; rw [hz]
  have hs : (fun q => shiftedAt l b p q) = fun q => shiftedAt l' b' p' q := funext fun q => by
    unfold shiftedAt; rw [congrFun hz q, hm]
  unfold logSoftmaxAt
  rw [congrFun hs g]
  exact congrArg (fun f : Fin N → EReal => shiftedAt l' b' p' g - Ideal.log (∑ q : Fin N, Ideal.exp (f q))) hs

/-- The output layer: bias, then the log-softmax of every row. -/
def logSoftmax {M N : ℕ} (l : (⟨2, ![M, N]⟩ : Shape).Idx → EReal) (b : (⟨2, ![1, N]⟩ : Shape).Idx → EReal) :
    (⟨2, ![M, N]⟩ : Shape).Idx → EReal :=
  fun i => logSoftmaxAt l b (rowOf i) (colOf i)

theorem logSoftmax_ix2 {M N : ℕ} (l : (⟨2, ![M, N]⟩ : Shape).Idx → EReal) (b : (⟨2, ![1, N]⟩ : Shape).Idx → EReal)
    (p : Fin M) (g : Fin N) : logSoftmax l b (ix2 p g) = logSoftmaxAt l b p g := rfl

end Cert.GraphConv

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Region0.lean ====
/-
  The first launch: the feature matrix times the first weight matrix, block of rows by block of rows.

  The grid has 25 points. Point t loads rows 2000·t … 2000·t + 1999 of the [50000, 512] feature matrix and the
  whole [512, 256] weight matrix, multiplies them into a zero accumulator, and writes the [2000, 256] result
  back as rows 2000·t … 2000·t + 1999 of the output. Entry (p, g) of a point's result is the sum over k of the
  block's (p, k) times the weights' (k, g), which is entry (2000·t + p, g) of the product of the whole
  matrices; the 25 row blocks tile the output, so after the last write-back the output array is that product.
  Everything is stated for arbitrary contents of the buffers when the launch is entered.
-/
import proofs.«152284_j84301618085975_1_alg».proof.Proof.Gen.KernelIdeal.Frame
import proofs.«152284_j84301618085975_1_alg».proof.Proof.Spec
import proofs.«152284_j84301618085975_1_alg».proof.Proof.LibPlainDot
import Idealize.ShloMosaic.Lib.Pipeline.Value
import Idealize.ShloMosaic.Lib.ValueIdx

set_option maxRecDepth 16384

noncomputable section

namespace Cert.KernelIdeal.FirstProduct

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What a point stores, read at (p, g): row p of its block of the features against column g of the weights
    (a change of float format is the identity on the extended reals, and the accumulator starts at zero). -/
theorem stored_apply (x0 : Vec Ideal S2000x512 .f32) (x1 : Vec Ideal S512x256 .f32) (p : Fin 2000) (g : Fin 256) :
    k0_pay1 x0 x1 (ix2 p g) = ∑ k : Fin 512, x0 (ix2 p k) * x1 (ix2 k g) := by
  unfold k0_pay1
  exact Cert.PlainDot.matmul_zero_apply dot_S2000x512_S512x256_S2000x256_1_0_0_1_n_n rfl _ _ p g

/-- The block indices over the grid: the features' and the output's row block is the point's number, every
    column block and the weights' block is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 2000·t + p of the feature matrix. -/
theorem features_block_apply (c : Dev nD) (t : Fin cfg0.N) (p : Fin 2000) (k : Fin 512) (r : Fin 50000)
    (hr : r.val = 2000 * t.val + p.val) :
    (iblk0 V c 0 t : Vec Ideal S2000x512 .f32) (ix2 p k) = (V c main_arg0 : S50000x512.Idx → EReal) (ix2 r k) := by
  obtain ⟨e0, e1, -⟩ := block_indices t
  unfold iblk0
  rw [View.read_apply]
  show (V c main_arg0 : S50000x512.Idx → EReal) _ = (V c main_arg0 : S50000x512.Idx → EReal) _
  refine congrArg (V c main_arg0 : S50000x512.Idx → EReal) ?_
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The weights' block at every point is the whole weight matrix. -/
theorem weights_block_apply (c : Dev nD) (t : Fin cfg0.N) (k : Fin 512) (g : Fin 256) :
    (iblk0 V c 1 t : Vec Ideal S512x256 .f32) (ix2 k g) = (V c main_arg1 : S512x256.Idx → EReal) (ix2 k g) := by
  obtain ⟨-, -, e2, e3, -⟩ := block_indices t
  unfold iblk0
  rw [View.read_apply]
  show (V c main_arg1 : S512x256.Idx → EReal) _ = (V c main_arg1 : S512x256.Idx → EReal) _
  refine congrArg (V c main_arg1 : S512x256.Idx → EReal) ?_
  funext a
  apply Fin.ext
  match a with
  | ⟨0, _⟩ => show win0_1.index t (0 : Fin 2) * 512 + 1 * k.val = k.val; omega
  | ⟨1, _⟩ => show win0_1.index t (1 : Fin 2) * 256 + 1 * g.val = g.val; omega

/-- What point t writes back is block t of the product of the two matrices as the launch finds them. -/
theorem flushed_eq (c : Dev nD) (t : Fin cfg0.N) :
    (dat0 V c).flushed 2 t = ((cfg0.win 2).blk t).view.read (Elt Ideal)
      (product (V c main_arg0 : S50000x512.Idx → EReal) (V c main_arg1 : S512x256.Idx → EReal)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x256) zero_offsets]
  obtain ⟨-, -, -, -, e4, e5⟩ := block_indices t
  funext y
  obtain ⟨p, g, rfl⟩ : ∃ (p : Fin 2000) (g : Fin 256), y = ix2 p g := ⟨y 0, y 1, eq_ix2 y⟩
  have hr : 2000 * t.val + p.val < 50000 := by
    have ht : t.val < 25 := lt_of_lt_of_eq t.isLt N_0
    have := p.isLt; omega
  have hemb : ((cfg0.win 2).blk t).view.emb (ix2 p g) = ix2 (⟨2000 * t.val + p.val, hr⟩ : Fin 50000) g := by
    funext a
    apply Fin.ext
    match a with
    | ⟨0, _⟩ => show win0_2.index t (0 : Fin 2) * 2000 + 1 * p.val = 2000 * t.val + p.val; omega
    | ⟨1, _⟩ => show win0_2.index t (1 : Fin 2) * 256 + 1 * g.val = g.val; omega
  rw [View.read_apply, hemb, product_ix2]
  show k0_pay1 (iblk0 V c 0 t) (iblk0 V c 1 t) (ix2 p g) = _
  rw [stored_apply]
  unfold productAt
  refine Finset.sum_congr rfl fun k _ => ?_
  rw [features_block_apply V c t p k ⟨2000 * t.val + p.val, hr⟩ rfl, weights_block_apply V c t k g]

/-- An index of the output lies in point t's block iff each coordinate lies in the block's range. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Every row of the output is in the block of the point whose number is the row divided by 2000. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the last write-back the output array is the product of the two matrices as the launch finds them. -/
theorem final (c : Dev nD) :
    (dat0 V c).arrAt 2 cfg0.N
      = product (V c main_arg0 : S50000x512.Idx → EReal) (V c main_arg1 : S512x256.Idx → EReal) :=
  (dat0 V c).arrAt_eq_of_cover 2 _ (fun t _ => flushed_eq V c t) covered

end Cert.KernelIdeal.FirstProduct

end
-- ==== Proof.Region1.lean ====
/-
  The second launch: bias, rectifier and the second weight matrix, block of rows by block of rows.

  Point t of the 25-point grid loads rows 2000·t … 2000·t + 1999 of the [50000, 256] aggregated matrix, the whole
  [1, 256] bias row and the whole [256, 64] weight matrix; it adds the bias row to every row of the block, takes
  the maximum with zero, multiplies by the weights into a zero accumulator, and writes the [2000, 64] result back
  as rows 2000·t … 2000·t + 1999 of the output. Entry (p, g) of a point's result is the sum over k of
  max(block(p, k) + bias(0, k), 0) · weights(k, g): entry (2000·t + p, g) of the hidden layer of the whole
  matrices. The 25 row blocks tile the output, so after the last write-back the output array is that layer.
  Everything is stated for arbitrary contents of the buffers when the launch is entered.
-/
import proofs.«152284_j84301618085975_1_alg».proof.Proof.Gen.KernelIdeal.Frame
import proofs.«152284_j84301618085975_1_alg».proof.Proof.Spec
import proofs.«152284_j84301618085975_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.HiddenLayer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, k) of what a point feeds the matrix unit: the block's entry plus the bias row's, its maximum with zero. -/
theorem activation_apply (x0 : Vec Ideal S2000x256 .f32) (x1 : Vec Ideal S1x256 .f32) (p : Fin 2000) (k : Fin 256) :
    maximumf (addf (shapeCast S2000x256 x0 shapeCasts_S2000x256_S2000x256)
        (broadcastTo S2000x256 (shapeCast S1x256 x1 shapeCasts_S1x256_S1x256) broadcasts_S1x256_S2000x256))
      (broadcast S2000x256 (Scalar.ofBits (F := Ideal) .f32 0x00000000#32)) (ix2 p k)
      = activationAt (x0 : (⟨2, ![2000, 256]⟩ : Shape).Idx → EReal) x1 p k := by
  rw [maximumf_apply, addf_apply, shapeCast_self, shapeCast_self, broadcastTo_1b_ab_apply]
  rfl

/-- What a point stores, read at (p, g): the hidden layer's entry for row p of its block. -/
theorem stored_apply (x0 : Vec Ideal S2000x256 .f32) (x1 : Vec Ideal S1x256 .f32) (x2 : Vec Ideal S256x64 .f32)
    (p : Fin 2000) (g : Fin 64) :
    k1_pay1 x0 x1 x2 (ix2 p g) = hiddenAt (x0 : (⟨2, ![2000, 256]⟩ : Shape).Idx → EReal) x1 x2 p g := by
  unfold k1_pay1
  refine (Cert.PlainDot.matmul_zero_apply dot_S2000x256_S256x64_S2000x64_1_0_0_1_n_n rfl _ _ p g).trans ?_
  unfold hiddenAt
  refine Finset.sum_congr rfl fun k _ => ?_
  exact congrArg (· * x2 (ix2 k g)) (activation_apply x0 x1 p k)

/-- The block indices over the grid: the aggregated matrix's and the output's row block is the point's number;
    every column block, the bias row's block and the weights' block are 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the aggregated matrix's block at point t is row 2000·t + p of the matrix. -/
theorem rows_block_apply (c : Dev nD) (t : Fin cfg1.N) (p : Fin 2000) (k : Fin 256) (r : Fin 50000)
    (hr : r.val = 2000 * t.val + p.val) :
    (iblk1 V c 0 t : Vec Ideal S2000x256 .f32) (ix2 p k) = (V c main_v13 : S50000x256.Idx → EReal) (ix2 r k) := by
  obtain ⟨e0, e1, -⟩ := block_indices t
  unfold iblk1
  rw [View.read_apply]
  show (V c main_v13 : S50000x256.Idx → EReal) _ = (V c main_v13 : S50000x256.Idx → EReal) _
  refine congrArg (V c main_v13 : S50000x256.Idx → EReal) ?_
  funext a
  apply Fin.ext
  match a with
  | ⟨0, _⟩ => show win1_0.index t (0 : Fin 2) * 2000 + 1 * p.val = r.val; omega
  | ⟨1, _⟩ => show win1_0.index t (1 : Fin 2) * 256 + 1 * k.val = k.val; omega

/-- The bias row's block at every point is the whole bias row. -/
theorem bias_block_apply (c : Dev nD) (t : Fin cfg1.N) (k : Fin 256) :
    (iblk1 V c 1 t : Vec Ideal S1x256 .f32) (ix2 (0 : Fin 1) k) = (V c main_v14 : S1x256.Idx → EReal) (ix2 (0 : Fin 1) k) := by
  obtain ⟨-, -, e2, e3, -⟩ := block_indices t
  unfold iblk1
  rw [View.read_apply]
  show (V c main_v14 : S1x256.Idx → EReal) _ = (V c main_v14 : S1x256.Idx → EReal) _
  refine congrArg (V c main_v14 : S1x256.Idx → EReal) ?_
  funext a
  apply Fin.ext
  match a with
  | ⟨0, _⟩ => show win1_1.index t (0 : Fin 2) * 1 + 1 * 0 = 0; omega
  | ⟨1, _⟩ => show win1_1.index t (1 : Fin 2) * 256 + 1 * k.val = k.val; omega

/-- The weights' block at every point is the whole weight matrix. -/
theorem weights_block_apply (c : Dev nD) (t : Fin cfg1.N) (k : Fin 256) (g : Fin 64) :
    (iblk1 V c 2 t : Vec Ideal S256x64 .f32) (ix2 k g) = (V c main_arg3 : S256x64.Idx → EReal) (ix2 k g) := by
  obtain ⟨-, -, -, -, e4, e5, -⟩ := block_indices t
  unfold iblk1
  rw [View.read_apply]
  show (V c main_arg3 : S256x64.Idx → EReal) _ = (V c main_arg3 : S256x64.Idx → EReal) _
  refine congrArg (V c main_arg3 : S256x64.Idx → EReal) ?_
  funext a
  apply Fin.ext
  match a with
  | ⟨0, _⟩ => show win1_2.index t (0 : Fin 2) * 256 + 1 * k.val = k.val; omega
  | ⟨1, _⟩ => show win1_2.index t (1 : Fin 2) * 64 + 1 * g.val = g.val; omega

/-- What point t writes back is block t of the hidden layer of the arrays as the launch finds them. -/
theorem flushed_eq (c : Dev nD) (t : Fin cfg1.N) :
    (dat1 V c).flushed 3 t = ((cfg1.win 3).blk t).view.read (Elt Ideal)
      (hidden (V c main_v13 : S50000x256.Idx → EReal) (V c main_v14 : S1x256.Idx → EReal) (V c main_arg3 : S256x64.Idx → EReal)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S1x256) zero_offsets,
    View.ld_unit_zero (S := S256x64) zero_offsets]
  obtain ⟨-, -, -, -, -, -, e6, e7⟩ := block_indices t
  funext y
  obtain ⟨p, g, rfl⟩ : ∃ (p : Fin 2000) (g : Fin 64), y = ix2 p g := ⟨y 0, y 1, eq_ix2 y⟩
  have hr : 2000 * t.val + p.val < 50000 := by
    have ht : t.val < 25 := lt_of_lt_of_eq t.isLt N_1
    have := p.isLt; omega
  have hemb : ((cfg1.win 3).blk t).view.emb (ix2 p g) = ix2 (⟨2000 * t.val + p.val, hr⟩ : Fin 50000) g := by
    funext a
    apply Fin.ext
    match a with
    | ⟨0, _⟩ => show win1_3.index t (0 : Fin 2) * 2000 + 1 * p.val = 2000 * t.val + p.val; omega
    | ⟨1, _⟩ => show win1_3.index t (1 : Fin 2) * 64 + 1 * g.val = g.val; omega
  rw [View.read_apply, hemb, hidden_ix2]
  show k1_pay1 (iblk1 V c 0 t) (iblk1 V c 1 t) (iblk1 V c 2 t) (ix2 p g) = _
  rw [stored_apply]
  exact hiddenAt_congr _ _ _ _ _ _ p ⟨2000 * t.val + p.val, hr⟩ g
    (fun k => rows_block_apply V c t p k ⟨2000 * t.val + p.val, hr⟩ rfl)
    (fun k => bias_block_apply V c t k) (fun k => weights_block_apply V c t k g)

/-- An index of the output lies in point t's block iff each coordinate lies in the block's range. -/
theorem mem_block (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v15).slice (win1_3.rect t)).set ↔ _
  rw [View.set_slice_whole, Rect.mem_set_unit]
  exact Iff.rfl

/-- Every row of the output is in the block of the point whose number is the row divided by 2000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, e6, e7⟩ := block_indices t
  have ht : t.val = (i 0).val / 2000 := rfl
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the last write-back the output array is the hidden layer of the arrays as the launch finds them. -/
theorem final (c : Dev nD) :
    (dat1 V c).arrAt 3 cfg1.N
      = hidden (V c main_v13 : S50000x256.Idx → EReal) (V c main_v14 : S1x256.Idx → EReal) (V c main_arg3 : S256x64.Idx → EReal) :=
  (dat1 V c).arrAt_eq_of_cover 3 _ (fun t _ => flushed_eq V c t) covered

end Cert.KernelIdeal.HiddenLayer

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Region2.lean ====
/-
  The third launch: the second bias and the log-softmax of every row, block of rows by block of rows.

  Point t of the 25-point grid loads rows 2000·t … 2000·t + 1999 of the [50000, 64] aggregated matrix and the whole
  [1, 64] bias row. It adds the bias row to every row of the block; takes each row's maximum from −∞; subtracts it;
  exponentiates; sums each row from zero; takes the logarithm; subtracts it from the shifted row; and writes the
  [2000, 64] result back as rows 2000·t … 2000·t + 1999 of the output. A row's maximum and sum stay inside the
  row, so entry (p, g) of a point's result is entry (2000·t + p, g) of the log-softmax of the whole matrix. The 25
  row blocks tile the output, so after the last write-back the output array is that log-softmax.
  Everything is stated for arbitrary contents of the buffers when the launch is entered.
-/
import proofs.«152284_j84301618085975_1_alg».proof.Proof.Gen.KernelIdeal.Frame
import proofs.«152284_j84301618085975_1_alg».proof.Proof.Spec
import proofs.«152284_j84301618085975_1_alg».proof.Proof.LibAxisFolds
import proofs.«152284_j84301618085975_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.OutputLayer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)
open Cert.Lib.AxisFolds Cert.Lib.Keepdims

variable (V : (c : Dev nD) → (b : Ref sig .tc) → Buf (Elt Ideal) ((c : Thread nD τ).loc b))

theorem zero_offsets : (![0, 0] : Fin 2 → Nat) = fun _ => 0 := funext fun a => by fin_cases a <;> rfl

/-- The block with the bias row added to every row. -/
abbrev biased (x0 : Vec Ideal S2000x64 .f32) (x1 : Vec Ideal S1x64 .f32) : FVec Ideal S2000x64 .f32 :=
  addf (shapeCast S2000x64 x0 shapeCasts_S2000x64_S2000x64)
    (broadcastTo S2000x64 (shapeCast S1x64 x1 shapeCasts_S1x64_S1x64) broadcasts_S1x64_S2000x64)

theorem biased_apply (x0 : Vec Ideal S2000x64 .f32) (x1 : Vec Ideal S1x64 .f32) (p : Fin 2000) (q : Fin 64) :
    biased x0 x1 (ix2 p q) = logitAt (x0 : (⟨2, ![2000, 64]⟩ : Shape).Idx → EReal) x1 p q := by
  unfold biased
  rw [addf_apply, shapeCast_self, shapeCast_self, broadcastTo_1b_ab_apply]
  rfl

/-- The block's rows with their maxima subtracted. -/
abbrev shiftedRows (x0 : Vec Ideal S2000x64 .f32) (x1 : Vec Ideal S1x64 .f32) : FVec Ideal S2000x64 .f32 :=
  subf (biased x0 x1)
    (broadcastTo S2000x64 (shapeCast S2000x1
      (multiReduction .maximumf [1] S2000 (biased x0 x1) 0xFF800000#32 reduces_S2000x64_S2000 (.inl rfl) rfl)
      shapeCasts_S2000_S2000x1) broadcasts_S2000x1_S2000x64)

/-- The maximum of row p of the biased block, taken from −∞. -/
theorem rowMax_apply (x0 : Vec Ideal S2000x64 .f32) (x1 : Vec Ideal S1x64 .f32) (p : Fin 2000) :
    multiReduction .maximumf [1] S2000 (biased x0 x1) 0xFF800000#32 reduces_S2000x64_S2000 (.inl rfl) rfl (ix1 p)
      = rowMaxAt (x0 : (⟨2, ![2000, 64]⟩ : Shape).Idx → EReal) x1 p :=
  (lastMax_apply (biased x0 x1) 0xFF800000#32 reduces_S2000x64_S2000 (.inl rfl) rfl p).trans
    (congrArg (fun f : Fin 64 → EReal => (Finset.univ : Finset (Fin 64)).fold max (Ideal.ofBits .f32 0xFF800000#32) f)
      (funext fun k => biased_apply x0 x1 p k))

/-- The sum of row p of a [2000, 64] block, taken from zero. -/
theorem rowSum_apply (v : FVec Ideal S2000x64 .f32) (p : Fin 2000) :
    multiReduction .add [1] S2000 v 0x00000000#32 reduces_S2000x64_S2000 (.inl rfl) rfl (ix1 p) = ∑ k : Fin 64, v (ix2 p k) :=
  laneSum_apply v 0x00000000#32 reduces_S2000x64_S2000 (.inl rfl) rfl p

theorem shiftedRows_apply (x0 : Vec Ideal S2000x64 .f32) (x1 : Vec Ideal S1x64 .f32) (p : Fin 2000) (q : Fin 64) :
    shiftedRows x0 x1 (ix2 p q) = shiftedAt (x0 : (⟨2, ![2000, 64]⟩ : Shape).Idx → EReal) x1 p q := by
  unfold shiftedRows
  rw [subf_apply, broadcastTo_a1_ab_apply, shapeCast_a_a1_apply]
  exact congrArg₂ (· - ·) (biased_apply x0 x1 p q) (rowMax_apply x0 x1 p)

/-- What a point stores, read at (p, g): the log-softmax entry for row p of its block. -/
theorem stored_apply (x0 : Vec Ideal S2000x64 .f32) (x1 : Vec Ideal S1x64 .f32) (p : Fin 2000) (g : Fin 64) :
    k2_pay1 x0 x1 (ix2 p g) = logSoftmaxAt (x0 : (⟨2, ![2000, 64]⟩ : Shape).Idx → EReal) x1 p g := by
  show subf (shiftedRows x0 x1)
      (broadcastTo S2000x64 (log (shapeCast S2000x1
        (multiReduction .add [1] S2000 (exp (shiftedRows x0 x1)) 0x00000000#32 reduces_S2000x64_S2000 (.inl rfl) rfl)
        shapeCasts_S2000_S2000x1)) broadcasts_S2000x1_S2000x64) (ix2 p g) = _
  rw [subf_apply, broadcastTo_a1_ab_apply, shiftedRows_apply]
  unfold logSoftmaxAt
  refine congrArg (fun z : EReal => shiftedAt (x0 : (⟨2, ![2000, 64]⟩ : Shape).Idx → EReal) x1 p g - z) ?_
  show Ideal.log (shapeCast S2000x1
      (multiReduction .add [1] S2000 (exp (shiftedRows x0 x1)) 0x00000000#32 reduces_S2000x64_S2000 (.inl rfl) rfl)
      shapeCasts_S2000_S2000x1 (ix2 p (0 : Fin 1))) = _
  rw [shapeCast_a_a1_apply]
  refine congrArg Ideal.log ((rowSum_apply _ p).trans (Finset.sum_congr rfl fun q _ => ?_))
  show Ideal.exp (shiftedRows x0 x1 (ix2 p q)) = _
  rw [shiftedRows_apply]

/-- The block indices over the grid: the aggregated matrix's and the output's row block is the point's number;
    every column block and the bias row's block are 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the aggregated matrix's block at point t is row 2000·t + p of the matrix. -/
theorem rows_block_apply (c : Dev nD) (t : Fin cfg2.N) (p : Fin 2000) (q : Fin 64) (r : Fin 50000)
    (hr : r.val = 2000 * t.val + p.val) :
    (iblk2 V c 0 t : Vec Ideal S2000x64 .f32) (ix2 p q) = (V c main_v28 : S50000x64.Idx → EReal) (ix2 r q) := by
  obtain ⟨e0, e1, -⟩ := block_indices t
  unfold iblk2
  rw [View.read_apply]
  show (V c main_v28 : S50000x64.Idx → EReal) _ = (V c main_v28 : S50000x64.Idx → EReal) _
  refine congrArg (V c main_v28 : S50000x64.Idx → EReal) ?_
  funext a
  apply Fin.ext
  match a with
  | ⟨0, _⟩ => show win2_0.index t (0 : Fin 2) * 2000 + 1 * p.val = r.val; omega
  | ⟨1, _⟩ => show win2_0.index t (1 : Fin 2) * 64 + 1 * q.val = q.val; omega

/-- The bias row's block at every point is the whole bias row. -/
theorem bias_block_apply (c : Dev nD) (t : Fin cfg2.N) (q : Fin 64) :
    (iblk2 V c 1 t : Vec Ideal S1x64 .f32) (ix2 (0 : Fin 1) q) = (V c main_v29 : S1x64.Idx → EReal) (ix2 (0 : Fin 1) q) := by
  obtain ⟨-, -, e2, e3, -⟩ := block_indices t
  unfold iblk2
  rw [View.read_apply]
  show (V c main_v29 : S1x64.Idx → EReal) _ = (V c main_v29 : S1x64.Idx → EReal) _
  refine congrArg (V c main_v29 : S1x64.Idx → EReal) ?_
  funext a
  apply Fin.ext
  match a with
  | ⟨0, _⟩ => show win2_1.index t (0 : Fin 2) * 1 + 1 * 0 = 0; omega
  | ⟨1, _⟩ => show win2_1.index t (1 : Fin 2) * 64 + 1 * q.val = q.val; omega

/-- What point t writes back is block t of the log-softmax of the arrays as the launch finds them. -/
theorem flushed_eq (c : Dev nD) (t : Fin cfg2.N) :
    (dat2 V c).flushed 2 t = ((cfg2.win 2).blk t).view.read (Elt Ideal)
      (logSoftmax (V c main_v28 : S50000x64.Idx → EReal) (V c main_v29 : S1x64.Idx → EReal)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S1x64) zero_offsets]
  obtain ⟨-, -, -, -, e4, e5⟩ := block_indices t
  funext y
  obtain ⟨p, g, rfl⟩ : ∃ (p : Fin 2000) (g : Fin 64), y = ix2 p g := ⟨y 0, y 1, eq_ix2 y⟩
  have hr : 2000 * t.val + p.val < 50000 := by
    have ht : t.val < 25 := lt_of_lt_of_eq t.isLt N_2
    have := p.isLt; omega
  have hemb : ((cfg2.win 2).blk t).view.emb (ix2 p g) = ix2 (⟨2000 * t.val + p.val, hr⟩ : Fin 50000) g := by
    funext a
    apply Fin.ext
    match a with
    | ⟨0, _⟩ => show win2_2.index t (0 : Fin 2) * 2000 + 1 * p.val = 2000 * t.val + p.val; omega
    | ⟨1, _⟩ => show win2_2.index t (1 : Fin 2) * 64 + 1 * g.val = g.val; omega
  rw [View.read_apply, hemb, logSoftmax_ix2]
  show k2_pay1 (iblk2 V c 0 t) (iblk2 V c 1 t) (ix2 p g) = _
  rw [stored_apply]
  exact logSoftmaxAt_congr _ _ _ _ p ⟨2000 * t.val + p.val, hr⟩ g
    (fun q => rows_block_apply V c t p q ⟨2000 * t.val + p.val, hr⟩ rfl) (fun q => bias_block_apply V c t q)

/-- An index of the output lies in point t's block iff each coordinate lies in the block's range. -/
theorem mem_block (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v30).slice (win2_2.rect t)).set ↔ _
  rw [View.set_slice_whole, Rect.mem_set_unit]
  exact Iff.rfl

/-- Every row of the output is in the block of the point whose number is the row divided by 2000. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨-, -, -, -, e4, e5⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the last write-back the output array is the log-softmax of the arrays as the launch finds them. -/
theorem final (c : Dev nD) :
    (dat2 V c).arrAt 2 cfg2.N
      = logSoftmax (V c main_v28 : S50000x64.Idx → EReal) (V c main_v29 : S1x64.Idx → EReal) :=
  (dat2 V c).arrAt_eq_of_cover 2 _ (fun t _ => flushed_eq V c t) covered

end Cert.KernelIdeal.OutputLayer

end
-- ==== Proof.HostChain.lean ====
/-
  The aggregation along the edges of the graph, and the network as one function of its inputs.

  The graph is a list of 800000 edges, each with a source node, a destination node and a weight. Aggregating a
  matrix with one row per node replaces row d by the sum, over the edges that end in d, of the edge's weight times
  the source node's row: the rows are gathered by source index (a negative index first wrapped into range by
  adding the node count), scaled by the weight, and scatter-added into a zero matrix by destination index. Both
  programs apply exactly these host operations, to a [50000, 256] matrix in the first layer and to a [50000, 64]
  matrix in the second; they are carried here as two functions that are never opened: what is proved about the
  programs is that equal matrices go in.

  The whole network is then: the product of the features with the first weights; the first aggregation; the hidden
  layer (bias, rectifier, second weights); the second aggregation; the output layer (bias, row-wise log-softmax).
  A bias enters as a one-row matrix.
-/
import proofs.«152284_j84301618085975_1_alg».proof.Proof.Gen.KernelIdeal
import proofs.«152284_j84301618085975_1_alg».proof.Proof.Spec

noncomputable section

namespace Cert.GraphConv

open Cert.KernelIdeal Cert.KernelIdeal.Gen Idealize.ShloMosaic

/-- The source indices with the negative ones wrapped into range. -/
def wrapped (src : (⟨S800000, .i32⟩ : BufTy).Contents (Elt Ideal)) : (⟨S800000, .i32⟩ : BufTy).Contents (Elt Ideal) :=
  select (cmpi .slt src (broadcastInDim S800000 ![] bcast_S_S800000 (constantI S_ 32 0#32)))
    (addi src (broadcastInDim S800000 ![] bcast_S_S800000 (constantI S_ 32 50000#32))) src

/-- The aggregation of a [50000, 256] matrix along the edges. -/
def aggregate256 (s : (⟨S50000x256, .f32⟩ : BufTy).Contents (Elt Ideal)) (w : (⟨S800000, .f32⟩ : BufTy).Contents (Elt Ideal))
    (src dst : (⟨S800000, .i32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (Host.gather gather_S50000x256_S800000x1_S800000x256_1_0_n_n_0_1_1256 s
        (broadcastInDim S800000x1 ![0] bcast_S800000_S800000x1_0 (wrapped src)))
      (broadcastInDim S800000x256 ![0, 1] bcast_S800000x1_S800000x256_0_1
        (broadcastInDim S800000x1 ![0] bcast_S800000_S800000x1_0 w)))

/-- The aggregation of a [50000, 64] matrix along the edges. -/
def aggregate64 (s : (⟨S50000x64, .f32⟩ : BufTy).Contents (Elt Ideal)) (w : (⟨S800000, .f32⟩ : BufTy).Contents (Elt Ideal))
    (src dst : (⟨S800000, .i32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 s
        (broadcastInDim S800000x1 ![0] bcast_S800000_S800000x1_0 (wrapped src)))
      (broadcastInDim S800000x64 ![0, 1] bcast_S800000x1_S800000x64_0_1
        (broadcastInDim S800000x1 ![0] bcast_S800000_S800000x1_0 w)))

/-- The network's result as one function of the features, the weights, the biases as rows, and the edges. -/
def network (x : (⟨S50000x512, .f32⟩ : BufTy).Contents (Elt Ideal)) (w1 : (⟨S512x256, .f32⟩ : BufTy).Contents (Elt Ideal))
    (b1 : (⟨S1x256, .f32⟩ : BufTy).Contents (Elt Ideal)) (w2 : (⟨S256x64, .f32⟩ : BufTy).Contents (Elt Ideal))
    (b2 : (⟨S1x64, .f32⟩ : BufTy).Contents (Elt Ideal)) (ew : (⟨S800000, .f32⟩ : BufTy).Contents (Elt Ideal))
    (src dst : (⟨S800000, .i32⟩ : BufTy).Contents (Elt Ideal)) : (⟨S50000x64, .f32⟩ : BufTy).Contents (Elt Ideal) :=
  logSoftmax (aggregate64 (hidden (aggregate256 (product x w1) ew src dst) b1 w2) ew src dst) b2

end Cert.GraphConv

end
-- ==== Proof.Stretch1.lean ====
/-
  The host operations between the first and the second launch, read at the buffers the second launch takes.

  From any contents of the buffers, after these seventeen operations: the aggregated matrix is the aggregation of
  the first launch's output along the edges; the bias buffer of the second launch is the first bias vector viewed
  as one row; and no argument of the program has been written.
-/
import proofs.«152284_j84301618085975_1_alg».proof.Proof.Gen.KernelIdeal.Launch
import proofs.«152284_j84301618085975_1_alg».proof.Proof.HostChain
import Idealize.ShloMosaic.Lib.StableHlo.Run

set_option maxRecDepth 16384

noncomputable section

namespace Cert.KernelIdeal.BetweenFirstAndSecond

open Cert.KernelIdeal Cert.KernelIdeal.Gen Cert.GraphConv
open Idealize.ShloMosaic Idealize.ShloMosaic.TcCoe Idealize.SL.Sem Idealize.ShloMosaic.StableHlo

variable (W : Valuation τ sig (Elt Ideal))

/-- The aggregated matrix the second launch reads. -/
theorem aggregated : after hostOps1 W (Proc.devRef .tc main_v13)
    = aggregate256 (W (Proc.devRef .tc main_v0)) (W (Proc.devRef .tc main_arg5)) (W (Proc.devRef .tc main_arg6))
        (W (Proc.devRef .tc main_arg7)) := by
  after_results
  rfl

/-- The bias row the second launch reads: the first bias vector viewed as [1, 256]. -/
theorem bias_row : after hostOps1 W (Proc.devRef .tc main_v14)
    = shapeCast S1x256 (W (Proc.devRef .tc main_arg2) : (⟨S256, .f32⟩ : BufTy).Contents (Elt Ideal)) shapeCasts_S256_S1x256 := by
  after_results
  rfl

theorem keeps_arg3 : after hostOps1 W (Proc.devRef .tc main_arg3) = W (Proc.devRef .tc main_arg3) := by after_results
theorem keeps_arg4 : after hostOps1 W (Proc.devRef .tc main_arg4) = W (Proc.devRef .tc main_arg4) := by after_results
theorem keeps_arg5 : after hostOps1 W (Proc.devRef .tc main_arg5) = W (Proc.devRef .tc main_arg5) := by after_results
theorem keeps_arg6 : after hostOps1 W (Proc.devRef .tc main_arg6) = W (Proc.devRef .tc main_arg6) := by after_results
theorem keeps_arg7 : after hostOps1 W (Proc.devRef .tc main_arg7) = W (Proc.devRef .tc main_arg7) := by after_results

end Cert.KernelIdeal.BetweenFirstAndSecond

end
-- ==== Proof.Stretch2.lean ====
/-
  The host operations between the second and the third launch, read at the buffers the third launch takes.

  From any contents of the buffers, after these seventeen operations: the aggregated matrix is the aggregation of
  the second launch's output along the edges, and the bias buffer of the third launch is the second bias vector
  viewed as one row.
-/
import proofs.«152284_j84301618085975_1_alg».proof.Proof.Gen.KernelIdeal.Launch
import proofs.«152284_j84301618085975_1_alg».proof.Proof.HostChain
import Idealize.ShloMosaic.Lib.StableHlo.Run

set_option maxRecDepth 16384

noncomputable section

namespace Cert.KernelIdeal.BetweenSecondAndThird

open Cert.KernelIdeal Cert.KernelIdeal.Gen Cert.GraphConv
open Idealize.ShloMosaic Idealize.ShloMosaic.TcCoe Idealize.SL.Sem Idealize.ShloMosaic.StableHlo

variable (W : Valuation τ sig (Elt Ideal))

/-- The aggregated matrix the third launch reads. -/
theorem aggregated : after hostOps2 W (Proc.devRef .tc main_v28)
    = aggregate64 (W (Proc.devRef .tc main_v15)) (W (Proc.devRef .tc main_arg5)) (W (Proc.devRef .tc main_arg6))
        (W (Proc.devRef .tc main_arg7)) := by
  after_results
  rfl

/-- The bias row the third launch reads: the second bias vector viewed as [1, 64]. -/
theorem bias_row : after hostOps2 W (Proc.devRef .tc main_v29)
    = shapeCast S1x64 (W (Proc.devRef .tc main_arg4) : (⟨S64, .f32⟩ : BufTy).Contents (Elt Ideal)) shapeCasts_S64_S1x64 := by
  after_results
  rfl

end Cert.KernelIdeal.BetweenSecondAndThird

end
-- ==== Proof.KernelValue.lean ====
/-
  The kernel program's result as the network's function of its arguments.

  The buffer contents are followed through the program. At launch the arguments hold the given arrays. The first
  launch leaves the product of the features with the first weights in its output and writes nothing else; the
  first host stretch leaves the aggregation of that product, and the first bias viewed as one row; the second
  launch leaves the hidden layer of these and the second weights; the second host stretch leaves the aggregation of
  that layer, and the second bias viewed as one row; the third launch leaves the output layer of these. No launch
  and no host operation writes an argument, so every later stage still reads the arguments as launched.
-/
import proofs.«152284_j84301618085975_1_alg».proof.Proof.KernelRun
import proofs.«152284_j84301618085975_1_alg».proof.Proof.Region0
import proofs.«152284_j84301618085975_1_alg».proof.Proof.Region1
import proofs.«152284_j84301618085975_1_alg».proof.Proof.Region2
import proofs.«152284_j84301618085975_1_alg».proof.Proof.Stretch1
import proofs.«152284_j84301618085975_1_alg».proof.Proof.Stretch2
import proofs.«152284_j84301618085975_1_alg».proof.Proof.HostChain

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-- The network's function of the program's arguments as launched (a bias viewed as one row). -/
def result (c : Dev nD) : Buf (Elt Ideal) ((c.tc : Thread nD τ).loc main_v30) :=
  network (m ((c.tc : Thread nD τ).loc main_arg0)) (m ((c.tc : Thread nD τ).loc main_arg1))
    (shapeCast S1x256 (m ((c.tc : Thread nD τ).loc main_arg2) : (⟨S256, .f32⟩ : BufTy).Contents (Elt Ideal)) shapeCasts_S256_S1x256)
    (m ((c.tc : Thread nD τ).loc main_arg3))
    (shapeCast S1x64 (m ((c.tc : Thread nD τ).loc main_arg4) : (⟨S64, .f32⟩ : BufTy).Contents (Elt Ideal)) shapeCasts_S64_S1x64)
    (m ((c.tc : Thread nD τ).loc main_arg5)) (m ((c.tc : Thread nD τ).loc main_arg6)) (m ((c.tc : Thread nD τ).loc main_arg7))

/-! ## After the first launch -/

theorem first_v0 (c : Dev nD) : W1 m ρ c (Proc.devRef .tc main_v0)
    = product (m ((c.tc : Thread nD τ).loc main_arg0)) (m ((c.tc : Thread nD τ).loc main_arg1)) :=
  (W1_arr m ρ c 2).trans (FirstProduct.final (V0 m ρ) c)

theorem first_arg2 (c : Dev nD) : W1 m ρ c (Proc.devRef .tc main_arg2) = m ((c.tc : Thread nD τ).loc main_arg2) := W1_of_ne m ρ c main_arg2 (by decide)
theorem first_arg3 (c : Dev nD) : W1 m ρ c (Proc.devRef .tc main_arg3) = m ((c.tc : Thread nD τ).loc main_arg3) := W1_of_ne m ρ c main_arg3 (by decide)
theorem first_arg4 (c : Dev nD) : W1 m ρ c (Proc.devRef .tc main_arg4) = m ((c.tc : Thread nD τ).loc main_arg4) := W1_of_ne m ρ c main_arg4 (by decide)
theorem first_arg5 (c : Dev nD) : W1 m ρ c (Proc.devRef .tc main_arg5) = m ((c.tc : Thread nD τ).loc main_arg5) := W1_of_ne m ρ c main_arg5 (by decide)
theorem first_arg6 (c : Dev nD) : W1 m ρ c (Proc.devRef .tc main_arg6) = m ((c.tc : Thread nD τ).loc main_arg6) := W1_of_ne m ρ c main_arg6 (by decide)
theorem first_arg7 (c : Dev nD) : W1 m ρ c (Proc.devRef .tc main_arg7) = m ((c.tc : Thread nD τ).loc main_arg7) := W1_of_ne m ρ c main_arg7 (by decide)

/-! ## After the first host stretch -/

theorem second_in_v13 (c : Dev nD) : W2 m ρ c (Proc.devRef .tc main_v13)
    = aggregate256 (product (m ((c.tc : Thread nD τ).loc main_arg0)) (m ((c.tc : Thread nD τ).loc main_arg1)))
        (m ((c.tc : Thread nD τ).loc main_arg5)) (m ((c.tc : Thread nD τ).loc main_arg6)) (m ((c.tc : Thread nD τ).loc main_arg7)) := by
  refine (BetweenFirstAndSecond.aggregated (W1 m ρ c)).trans ?_
  rw [first_v0, first_arg5, first_arg6, first_arg7]

theorem second_in_v14 (c : Dev nD) : W2 m ρ c (Proc.devRef .tc main_v14)
    = shapeCast S1x256 (m ((c.tc : Thread nD τ).loc main_arg2) : (⟨S256, .f32⟩ : BufTy).Contents (Elt Ideal)) shapeCasts_S256_S1x256 := by
  refine (BetweenFirstAndSecond.bias_row (W1 m ρ c)).trans ?_
  rw [first_arg2]

theorem second_in_arg3 (c : Dev nD) : W2 m ρ c (Proc.devRef .tc main_arg3) = m ((c.tc : Thread nD τ).loc main_arg3) :=
  (BetweenFirstAndSecond.keeps_arg3 (W1 m ρ c)).trans (first_arg3 m ρ c)
theorem second_in_arg4 (c : Dev nD) : W2 m ρ c (Proc.devRef .tc main_arg4) = m ((c.tc : Thread nD τ).loc main_arg4) :=
  (BetweenFirstAndSecond.keeps_arg4 (W1 m ρ c)).trans (first_arg4 m ρ c)
theorem second_in_arg5 (c : Dev nD) : W2 m ρ c (Proc.devRef .tc main_arg5) = m ((c.tc : Thread nD τ).loc main_arg5) :=
  (BetweenFirstAndSecond.keeps_arg5 (W1 m ρ c)).trans (first_arg5 m ρ c)
theorem second_in_arg6 (c : Dev nD) : W2 m ρ c (Proc.devRef .tc main_arg6) = m ((c.tc : Thread nD τ).loc main_arg6) :=
  (BetweenFirstAndSecond.keeps_arg6 (W1 m ρ c)).trans (first_arg6 m ρ c)
theorem second_in_arg7 (c : Dev nD) : W2 m ρ c (Proc.devRef .tc main_arg7) = m ((c.tc : Thread nD τ).loc main_arg7) :=
  (BetweenFirstAndSecond.keeps_arg7 (W1 m ρ c)).trans (first_arg7 m ρ c)

/-! ## After the second launch -/

theorem second_v15 (c : Dev nD) : W3 m ρ c (Proc.devRef .tc main_v15)
    = hidden (aggregate256 (product (m ((c.tc : Thread nD τ).loc main_arg0)) (m ((c.tc : Thread nD τ).loc main_arg1)))
          (m ((c.tc : Thread nD τ).loc main_arg5)) (m ((c.tc : Thread nD τ).loc main_arg6)) (m ((c.tc : Thread nD τ).loc main_arg7)))
        (shapeCast S1x256 (m ((c.tc : Thread nD τ).loc main_arg2) : (⟨S256, .f32⟩ : BufTy).Contents (Elt Ideal)) shapeCasts_S256_S1x256)
        (m ((c.tc : Thread nD τ).loc main_arg3)) := by
  refine ((W3_arr m ρ c 3).trans (HiddenLayer.final (V2 m ρ) c)).trans ?_
  show hidden (W2 m ρ c (Proc.devRef .tc main_v13)) (W2 m ρ c (Proc.devRef .tc main_v14)) (W2 m ρ c (Proc.devRef .tc main_arg3)) = _
  rw [second_in_v13, second_in_v14, second_in_arg3]

theorem second_arg4 (c : Dev nD) : W3 m ρ c (Proc.devRef .tc main_arg4) = m ((c.tc : Thread nD τ).loc main_arg4) :=
  (W3_of_ne m ρ c main_arg4 (by decide)).trans (second_in_arg4 m ρ c)
theorem second_arg5 (c : Dev nD) : W3 m ρ c (Proc.devRef .tc main_arg5) = m ((c.tc : Thread nD τ).loc main_arg5) :=
  (W3_of_ne m ρ c main_arg5 (by decide)).trans (second_in_arg5 m ρ c)
theorem second_arg6 (c : Dev nD) : W3 m ρ c (Proc.devRef .tc main_arg6) = m ((c.tc : Thread nD τ).loc main_arg6) :=
  (W3_of_ne m ρ c main_arg6 (by decide)).trans (second_in_arg6 m ρ c)
theorem second_arg7 (c : Dev nD) : W3 m ρ c (Proc.devRef .tc main_arg7) = m ((c.tc : Thread nD τ).loc main_arg7) :=
  (W3_of_ne m ρ c main_arg7 (by decide)).trans (second_in_arg7 m ρ c)

/-! ## After the second host stretch, and the third launch -/

/-- After the third launch's last write-back its output array is the network's function of the arguments. -/
theorem third_out (c : Dev nD) : (dat2 (V4 m ρ) c).arrAt 2 cfg2.N = result m c := by
  refine (OutputLayer.final (V4 m ρ) c).trans ?_
  show logSoftmax (StableHlo.after hostOps2 (W3 m ρ c) (Proc.devRef .tc main_v28))
      (StableHlo.after hostOps2 (W3 m ρ c) (Proc.devRef .tc main_v29)) = _
  rw [BetweenSecondAndThird.aggregated (W3 m ρ c), BetweenSecondAndThird.bias_row (W3 m ρ c),
    second_v15, second_arg4, second_arg5, second_arg6, second_arg7]
  rfl

/-- Every weakly fair execution of the kernel program terminates, nothing faulting, with the result buffer at the
    network's function of the arguments and the arguments as launched. -/
theorem run : θ_run defs (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (third_out m ρ c), (h c).2⟩) (run_result (F := Ideal) m ρ)

end Cert.KernelIdeal.Whole

end
-- ==== Proof.RefRun.lean ====
/-
  The reference program's run, read one stretch of operations at a time.

  The reference is a straight line of 58 host operations. In order: the product of the features with the first
  weight matrix (one operation); the aggregation of its rows along the edges of the graph (sixteen: the source
  indices wrapped into range, the gather, the scaling by the edge weights, the scatter-add into the destination
  rows); the first bias, the rectifier and the product with the second weight matrix (seven); the second
  aggregation (sixteen); the second bias and the log-softmax of every row (eighteen). A straight line of host
  operations runs to the end without a fault, and each buffer then holds the fold of the operations' results
  over the launch contents; the fold over the whole line is the fold over the five stretches one after the other.
-/
import proofs.«152284_j84301618085975_1_alg».proof.Proof.Gen.ReferenceIdeal
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The program's 58 operations, in order (a called function's operations stand in its call's place). -/
abbrev ops : List (HloOp τ sig (Elt F)) :=
  [ binary main_arg0 main_arg1 main_v0 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg6 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg6 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg6 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg5 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x256 ![0, 1] bcast_S800000x1_S800000x256_0_1 : (⟨S800000x1, .f32⟩ : BufTy).Contents (Elt F) → (⟨S800000x256, .f32⟩ : BufTy).Contents (Elt F)),
    binary main_v7 main_v9 main_v10 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_arg7 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v16) (TRef.of (T := ⟨S50000x256, .f32⟩) main_call0_v0) (TRef.of (T := ⟨S50000x256, .f32⟩) main_v17) maximumf,
    binary main_v17 main_arg3 main_v18 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_arg6 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_arg6 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg6 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg5 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x64 ![0, 1] bcast_S800000x1_S800000x64_0_1 : (⟨S800000x1, .f32⟩ : BufTy).Contents (Elt F) → (⟨S800000x64, .f32⟩ : BufTy).Contents (Elt F)),
    binary main_v25 main_v27 main_v28 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v29 (broadcastInDim S50000x64 ![] bcast_S_S50000x64 : (⟨S_, .f32⟩ : BufTy).Contents (Elt F) → (⟨S50000x64, .f32⟩ : BufTy).Contents (Elt F)),
    unary main_arg7 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v34) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v34) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v35) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first product. -/
abbrev productOps : List (HloOp τ sig (Elt F)) :=
  [ binary main_arg0 main_arg1 main_v0 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]

/-- The first aggregation along the edges. -/
abbrev aggregateOps : List (HloOp τ sig (Elt F)) :=
  [ nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg6 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg6 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg6 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg5 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x256 ![0, 1] bcast_S800000x1_S800000x256_0_1 : (⟨S800000x1, .f32⟩ : BufTy).Contents (Elt F) → (⟨S800000x256, .f32⟩ : BufTy).Contents (Elt F)),
    binary main_v7 main_v9 main_v10 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_arg7 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The first bias, the rectifier, the second product. -/
abbrev hiddenOps : List (HloOp τ sig (Elt F)) :=
  [ unary main_arg2 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v16) (TRef.of (T := ⟨S50000x256, .f32⟩) main_call0_v0) (TRef.of (T := ⟨S50000x256, .f32⟩) main_v17) maximumf,
    binary main_v17 main_arg3 main_v18 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- The second aggregation along the edges. -/
abbrev aggregateOps' : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_arg6 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_arg6 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg6 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg5 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x64 ![0, 1] bcast_S800000x1_S800000x64_0_1 : (⟨S800000x1, .f32⟩ : BufTy).Contents (Elt F) → (⟨S800000x64, .f32⟩ : BufTy).Contents (Elt F)),
    binary main_v25 main_v27 main_v28 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v29 (broadcastInDim S50000x64 ![] bcast_S_S50000x64 : (⟨S_, .f32⟩ : BufTy).Contents (Elt F) → (⟨S50000x64, .f32⟩ : BufTy).Contents (Elt F)),
    unary main_arg7 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The second bias and the log-softmax of every row. -/
abbrev outputOps : List (HloOp τ sig (Elt F)) :=
  [ unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v34) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v34) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v35) subf ]

/-- The line is its five stretches in order. -/
theorem ops_eq : (ops : List (HloOp τ sig (Elt F))) = productOps ++ (aggregateOps ++ (hiddenOps ++ (aggregateOps' ++ outputOps))) := rfl

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffer contents after the whole line, from contents `V`: the five stretches' folds in order. -/
abbrev afterAll (V : Valuation τ sig (Elt F)) : Valuation τ sig (Elt F) :=
  after outputOps (after aggregateOps' (after hiddenOps (after aggregateOps (after productOps V))))

theorem after_ops (V : Valuation τ sig (Elt F)) : after ops V = afterAll V := by
  rw [ops_eq, after_append, after_append, after_append, after_append]

set_option maxRecDepth 8192 in
set_option maxHeartbeats 2000000 in
/-- On every device, for any float values, from any memory with zero counters: every weakly fair execution of the
    program terminates with the result buffer at the five stretches' folds over the launch contents, and the
    arguments, which no operation writes, unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = afterAll (launchContents m c) (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (congrFun (after_ops (launchContents m c)) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Staged

end
-- ==== Proof.RefEdges.lean ====
/-
  The reference's two aggregations along the edges, read at their results.

  From any contents of the buffers, the sixteen operations of an aggregation leave the aggregation (the function
  shared with the kernel program: the same gather by wrapped source index, the same scaling, the same scatter-add
  into zeros) of the matrix they start from, and write no argument of the program.
-/
import proofs.«152284_j84301618085975_1_alg».proof.Proof.RefRun
import proofs.«152284_j84301618085975_1_alg».proof.Proof.HostChain
import Idealize.ShloMosaic.Lib.StableHlo.Run

set_option maxRecDepth 16384

noncomputable section

namespace Cert.ReferenceIdeal.Edges

open Cert.ReferenceIdeal Cert.ReferenceIdeal.Gen Cert.ReferenceIdeal.Staged
open Idealize.ShloMosaic Idealize.ShloMosaic.TcCoe Idealize.SL.Sem Idealize.ShloMosaic.StableHlo

variable (W : Valuation τ sig (Elt Ideal))

namespace First

/-- After the first aggregation its result buffer holds the aggregation of the first product. -/
theorem aggregated : after aggregateOps W (Proc.devRef .tc main_v13)
    = Cert.GraphConv.aggregate256 (W (Proc.devRef .tc main_v0)) (W (Proc.devRef .tc main_arg5)) (W (Proc.devRef .tc main_arg6))
        (W (Proc.devRef .tc main_arg7)) := by
  after_results
  rfl

theorem keeps_arg2 : after aggregateOps W (Proc.devRef .tc main_arg2) = W (Proc.devRef .tc main_arg2) := by after_results
theorem keeps_arg3 : after aggregateOps W (Proc.devRef .tc main_arg3) = W (Proc.devRef .tc main_arg3) := by after_results
theorem keeps_arg4 : after aggregateOps W (Proc.devRef .tc main_arg4) = W (Proc.devRef .tc main_arg4) := by after_results
theorem keeps_arg5 : after aggregateOps W (Proc.devRef .tc main_arg5) = W (Proc.devRef .tc main_arg5) := by after_results
theorem keeps_arg6 : after aggregateOps W (Proc.devRef .tc main_arg6) = W (Proc.devRef .tc main_arg6) := by after_results
theorem keeps_arg7 : after aggregateOps W (Proc.devRef .tc main_arg7) = W (Proc.devRef .tc main_arg7) := by after_results

end First

namespace Second

/-- After the second aggregation its result buffer holds the aggregation of the second product. -/
theorem aggregated : after aggregateOps' W (Proc.devRef .tc main_v31)
    = Cert.GraphConv.aggregate64 (W (Proc.devRef .tc main_v18)) (W (Proc.devRef .tc main_arg5)) (W (Proc.devRef .tc main_arg6))
        (W (Proc.devRef .tc main_arg7)) := by
  after_results
  rfl

theorem keeps_arg4 : after aggregateOps' W (Proc.devRef .tc main_arg4) = W (Proc.devRef .tc main_arg4) := by after_results

end Second

end Cert.ReferenceIdeal.Edges

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.RefDense.lean ====
/-
  The reference's three dense stretches, read at their results as the host operations applied.

  • the first product: one contraction of the features with the first weights;
  • the hidden stretch: the first bias set as a row and spread over the rows, added, the maximum with a matrix of
    zeros, one contraction with the second weights;
  • the output stretch: the second bias set as a row, spread and added; each row's maximum (a reduce from −∞, then
    once more the maximum with −∞), set as a column, spread and subtracted; the exponential; each row's sum from
    zero, set as a column; the logarithm; spread and subtracted from the shifted matrix.
  Each is stated from any contents of the buffers; the stretches write no argument of the program.
-/
import proofs.«152284_j84301618085975_1_alg».proof.Proof.RefRun
import proofs.«152284_j84301618085975_1_alg».proof.Proof.HostChain
import proofs.«152284_j84301618085975_1_alg».proof.Proof.LibHostCalls
import Idealize.ShloMosaic.Lib.StableHlo.Run

set_option maxRecDepth 16384

noncomputable section

namespace Cert.ReferenceIdeal.Dense

open Cert.ReferenceIdeal Cert.ReferenceIdeal.Gen Cert.ReferenceIdeal.Staged
open Idealize.ShloMosaic Idealize.ShloMosaic.TcCoe Idealize.SL.Sem Idealize.ShloMosaic.StableHlo

variable (W : Valuation τ sig (Elt Ideal))

/-- A bias vector set as the one row of a [1, 256] matrix. -/
abbrev biasRow256 (b : FVec Ideal S256 .f32) : FVec Ideal S1x256 .f32 :=
  broadcastInDim S1x256 ![1] bcast_S256_S1x256_1 b

/-- A bias vector set as the one row of a [1, 64] matrix. -/
abbrev biasRow64 (b : FVec Ideal S64 .f32) : FVec Ideal S1x64 .f32 :=
  broadcastInDim S1x64 ![1] bcast_S64_S1x64_1 b

/-- The hidden stretch's operations on a matrix, a bias row and the weights. -/
def hiddenOf (h : FVec Ideal S50000x256 .f32) (b : FVec Ideal S1x256 .f32)
    (w : FVec Ideal S256x64 .f32) : FVec Ideal S50000x64 .f32 :=
  Host.dotGeneral dot_S50000x256_S256x64_S50000x64_1_0_0_1_n_n none
    (maximumf (addf h (broadcastInDim S50000x256 ![0, 1] bcast_S1x256_S50000x256_0_1 b))
      (broadcastInDim S50000x256 ![] bcast_S_S50000x256 (constant (F := Ideal) S_ .f32 0x00000000#32))) w

/-- The logits: the bias row spread over the rows and added. -/
def logitsOf (l : FVec Ideal S50000x64 .f32) (b : FVec Ideal S1x64 .f32) :
    FVec Ideal S50000x64 .f32 :=
  addf l (broadcastInDim S50000x64 ![0, 1] bcast_S1x64_S50000x64_0_1 b)

/-- The logits with each row's maximum subtracted. -/
def shiftedOf (z : FVec Ideal S50000x64 .f32) : FVec Ideal S50000x64 .f32 :=
  subf z (broadcastInDim S50000x64 ![0, 1] bcast_S50000x1_S50000x64_0_1
    (broadcastInDim S50000x1 ![0] bcast_S50000_S50000x1_0
      (maximumf (broadcastInDim S50000 ![] bcast_S_S50000 (constant (F := Ideal) S_ .f32 0xFF800000#32))
        (Host.reduce FloatOps.maximumf z (constant (F := Ideal) S_ .f32 0xFF800000#32) reducesTo_S50000x64_S50000_d1 h_S_))))

/-- The row-wise log-softmax as the output stretch computes it from the logits. -/
def logSoftmaxOf (z : FVec Ideal S50000x64 .f32) : FVec Ideal S50000x64 .f32 :=
  subf (shiftedOf z) (broadcastInDim S50000x64 ![0, 1] bcast_S50000x1_S50000x64_0_1
    (Host.log (broadcastInDim S50000x1 ![0] bcast_S50000_S50000x1_0
      (Host.reduceAdd (Host.exp (shiftedOf z)) (constant (F := Ideal) S_ .f32 0x00000000#32) reducesTo_S50000x64_S50000_d1 h_S_))))

namespace Product

theorem result : after productOps W (Proc.devRef .tc main_v0)
    = (Host.dotGeneral (F := Ideal) (φ₁ := .f32) (φ₂ := .f32) dot_S50000x512_S512x256_S50000x256_1_0_0_1_n_n none
        (W (Proc.devRef .tc main_arg0) : FVec Ideal S50000x512 .f32) (W (Proc.devRef .tc main_arg1) : FVec Ideal S512x256 .f32)
        : FVec Ideal S50000x256 .f32) := by
  after_results

theorem keeps_arg2 : after productOps W (Proc.devRef .tc main_arg2) = W (Proc.devRef .tc main_arg2) := by after_results
theorem keeps_arg3 : after productOps W (Proc.devRef .tc main_arg3) = W (Proc.devRef .tc main_arg3) := by after_results
theorem keeps_arg4 : after productOps W (Proc.devRef .tc main_arg4) = W (Proc.devRef .tc main_arg4) := by after_results
theorem keeps_arg5 : after productOps W (Proc.devRef .tc main_arg5) = W (Proc.devRef .tc main_arg5) := by after_results
theorem keeps_arg6 : after productOps W (Proc.devRef .tc main_arg6) = W (Proc.devRef .tc main_arg6) := by after_results
theorem keeps_arg7 : after productOps W (Proc.devRef .tc main_arg7) = W (Proc.devRef .tc main_arg7) := by after_results

end Product

namespace Hidden

theorem result : after hiddenOps W (Proc.devRef .tc main_v18)
    = hiddenOf (W (Proc.devRef .tc main_v13)) (biasRow256 (W (Proc.devRef .tc main_arg2))) (W (Proc.devRef .tc main_arg3)) := by
  after_results
  rfl

theorem keeps_arg4 : after hiddenOps W (Proc.devRef .tc main_arg4) = W (Proc.devRef .tc main_arg4) := by after_results
theorem keeps_arg5 : after hiddenOps W (Proc.devRef .tc main_arg5) = W (Proc.devRef .tc main_arg5) := by after_results
theorem keeps_arg6 : after hiddenOps W (Proc.devRef .tc main_arg6) = W (Proc.devRef .tc main_arg6) := by after_results
theorem keeps_arg7 : after hiddenOps W (Proc.devRef .tc main_arg7) = W (Proc.devRef .tc main_arg7) := by after_results

end Hidden

namespace Output

set_option maxRecDepth 65536 in
theorem result : after outputOps W (Proc.devRef .tc main_v35)
    = logSoftmaxOf (logitsOf (W (Proc.devRef .tc main_v31)) (biasRow64 (W (Proc.devRef .tc main_arg4)))) := by
  after_results
  simp only [Cert.Lib.HostCalls.ofBuf_toBuf]
  rfl

end Output

end Cert.ReferenceIdeal.Dense

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.RefLayers.lean ====
/-
  The reference's dense stretches are the three dense stages of the network.

  Read at an entry (r, g), over the extended reals:
  • the first contraction is the sum over k of the features' (r, k) times the weights' (k, g): the product;
  • in the hidden stretch the bias row spread over the rows reads the row's entry at the column, the matrix of zeros
    reads zero, so the contraction's left operand at (r, k) is max(h(r, k) + b(0, k), 0): the hidden layer;
  • in the output stretch the reduce with a maximum body reads, at row r, the fold of max from −∞ over the row, and the
    further maximum with −∞ changes nothing (−∞ is the least extended real); the sum from zero reads the row's sum
    (zero plus it); a vector set as a column and spread along the rows reads the vector's entry at the row. So the
    stretch computes z − max z − log Σ exp(z − max z) row by row: the output layer.
  A bias vector viewed as [1, n] and the same vector set as the row of a [1, n] matrix are one array.
-/
import proofs.«152284_j84301618085975_1_alg».proof.Proof.RefDense
import proofs.«152284_j84301618085975_1_alg».proof.Proof.Spec
import proofs.«152284_j84301618085975_1_alg».proof.Proof.LibPlainDot
import proofs.«152284_j84301618085975_1_alg».proof.Proof.LibAxisFolds
import proofs.«152284_j84301618085975_1_alg».proof.Proof.LibRowMax
import proofs.«152284_j84301618085975_1_alg».proof.Proof.LibHostColumns
import proofs.«152284_j84301618085975_1_alg».proof.Proof.LibBroadcastInDim
import proofs.«152284_j84301618085975_1_alg».proof.Proof.LibHostCalls
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.Gen Cert.ReferenceIdeal.Dense Cert.GraphConv
open Idealize.ShloMosaic Idealize.ShloMosaic.ValueIdx
open Cert.Lib.InDim Cert.Lib.AxisFolds Cert.Lib.HostColumns Cert.Lib.RowMax Cert.Lib.HostCalls

/-- A vector viewed as [1, n] is the vector set as the row of a [1, n] matrix. -/
theorem row_of_vector {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, q, rfl⟩ : ∃ (u : Fin 1) (q : Fin n), i = ix2 u q := ⟨i 0, i 1, eq_ix2 i⟩
  rw [shapeCast_a_1a_apply, vec_as_row]

/-- The first contraction is the matrix product. -/
theorem product_eq (x : FVec Ideal S50000x512 .f32) (w : FVec Ideal S512x256 .f32) :
    Host.dotGeneral dot_S50000x512_S512x256_S50000x256_1_0_0_1_n_n none x w = product x w := by
  funext i
  obtain ⟨r, g, rfl⟩ : ∃ (r : Fin 50000) (g : Fin 256), i = ix2 r g := ⟨i 0, i 1, eq_ix2 i⟩
  rw [product_ix2]
  exact Cert.PlainDot.hostDot_apply _ rfl x w r g

/-- The hidden stretch is the hidden layer. -/
theorem hidden_eq (h : FVec Ideal S50000x256 .f32) (b : FVec Ideal S1x256 .f32) (w : FVec Ideal S256x64 .f32) :
    hiddenOf h b w = hidden h b w := by
  funext i
  obtain ⟨r, g, rfl⟩ : ∃ (r : Fin 50000) (g : Fin 64), i = ix2 r g := ⟨i 0, i 1, eq_ix2 i⟩
  rw [hidden_ix2]
  unfold hiddenOf hiddenAt
  refine (Cert.PlainDot.hostDot_apply _ rfl _ w r g).trans (Finset.sum_congr rfl fun k _ => ?_)
  refine congrArg (· * w (ix2 k g)) ?_
  rw [maximumf_apply, addf_apply, row_spread]
  rfl

/-- The rows of a [50000, 64] matrix reduce to a [50000] vector. -/
theorem reduces_rows : (⟨2, ![50000, 64]⟩ : Shape).Reduces [1] ⟨1, ![50000]⟩ := by decide

/-- The logits at (r, q). -/
theorem logits_apply (l : FVec Ideal S50000x64 .f32) (b : FVec Ideal S1x64 .f32) (r : Fin 50000) (q : Fin 64) :
    logitsOf l b (ix2 r q) = logitAt l b r q := by
  unfold logitsOf
  rw [addf_apply, row_spread]
  rfl

/-- The row maximum the output stretch subtracts, at row r: the fold of max from −∞ over the row's logits. -/
theorem rowMax_apply (l : FVec Ideal S50000x64 .f32) (b : FVec Ideal S1x64 .f32) (r : Fin 50000) :
    maximumf (broadcastInDim S50000 ![] bcast_S_S50000 (constant (F := Ideal) S_ .f32 0xFF800000#32))
        (Host.reduce FloatOps.maximumf (logitsOf l b) (constant (F := Ideal) S_ .f32 0xFF800000#32) reducesTo_S50000x64_S50000_d1 h_S_)
        (ix1 r)
      = rowMaxAt l b r := by
  rw [maximumf_apply]
  refine (max_negInf_f32 _).trans ?_
  refine (hostLastMax_apply (logitsOf l b) (constant (F := Ideal) S_ .f32 0xFF800000#32) reducesTo_S50000x64_S50000_d1
    reduces_rows h_S_ r).trans ?_
  exact congrArg (fun f : Fin 64 → EReal => (Finset.univ : Finset (Fin 64)).fold max (Ideal.ofBits .f32 0xFF800000#32) f)
    (funext fun k => logits_apply l b r k)

/-- The shifted logits at (r, q). -/
theorem shifted_apply (l : FVec Ideal S50000x64 .f32) (b : FVec Ideal S1x64 .f32) (r : Fin 50000) (q : Fin 64) :
    shiftedOf (logitsOf l b) (ix2 r q) = shiftedAt l b r q := by
  unfold shiftedOf
  rw [subf_apply, col_spread, vec_as_col]
  exact congrArg₂ (· - ·) (logits_apply l b r q) (rowMax_apply l b r)

/-- The output stretch is the output layer. -/
theorem logSoftmax_eq (l : FVec Ideal S50000x64 .f32) (b : FVec Ideal S1x64 .f32) :
    logSoftmaxOf (logitsOf l b) = logSoftmax l b := by
  funext i
  obtain ⟨r, g, rfl⟩ : ∃ (r : Fin 50000) (g : Fin 64), i = ix2 r g := ⟨i 0, i 1, eq_ix2 i⟩
  rw [logSoftmax_ix2]
  unfold logSoftmaxOf logSoftmaxAt
  rw [subf_apply, col_spread, shifted_apply]
  refine congrArg (fun z : EReal => shiftedAt l b r g - z) ?_
  rw [hostLog_apply, vec_as_col]
  refine congrArg Ideal.log ?_
  refine (hostRowSum_apply (Host.exp (shiftedOf (logitsOf l b))) (constant (F := Ideal) S_ .f32 0x00000000#32)
    reducesTo_S50000x64_S50000_d1 reduces_rows h_S_ r).trans ?_
  rw [constant_apply, Ideal.ofBits_zero_f32, zero_add]
  refine Finset.sum_congr rfl fun q _ => ?_
  rw [hostExp_apply, shifted_apply]

end Cert.ReferenceIdeal.Layers

end
-- ==== Proof.RefValue.lean ====
/-
  The reference program's result as the network's function of its arguments.

  The buffer contents are followed through the five stretches. The first leaves the product of the features with
  the first weights; the second its aggregation along the edges; the third the hidden layer of that, of the first
  bias set as a row, and of the second weights; the fourth the aggregation of the hidden layer; the fifth the output
  layer of that and of the second bias set as a row. No stretch writes an argument, so each reads the arguments
  as launched.
-/
import proofs.«152284_j84301618085975_1_alg».proof.Proof.RefRun
import proofs.«152284_j84301618085975_1_alg».proof.Proof.RefEdges
import proofs.«152284_j84301618085975_1_alg».proof.Proof.RefDense
import proofs.«152284_j84301618085975_1_alg».proof.Proof.RefLayers
import proofs.«152284_j84301618085975_1_alg».proof.Proof.HostChain

set_option maxRecDepth 16384

noncomputable section

namespace Cert.ReferenceIdeal.Whole

open Cert.ReferenceIdeal Cert.ReferenceIdeal.Gen Cert.ReferenceIdeal.Staged Cert.ReferenceIdeal.Dense
open Idealize.ShloMosaic Idealize.ShloMosaic.TcCoe Idealize.SL.Sem Idealize.ShloMosaic.StableHlo

variable (m : (ℓ : Loc nD τ sig) → Buf (Elt Ideal) ℓ)

/-- The network's function of the program's arguments as launched (a bias set as the row of a one-row matrix). -/
def result (c : Dev nD) : Buf (Elt Ideal) ((c.tc : Thread nD τ).loc main_v35) :=
  Cert.GraphConv.network (m ((c.tc : Thread nD τ).loc main_arg0)) (m ((c.tc : Thread nD τ).loc main_arg1))
    (biasRow256 (m ((c.tc : Thread nD τ).loc main_arg2))) (m ((c.tc : Thread nD τ).loc main_arg3))
    (biasRow64 (m ((c.tc : Thread nD τ).loc main_arg4)))
    (m ((c.tc : Thread nD τ).loc main_arg5)) (m ((c.tc : Thread nD τ).loc main_arg6)) (m ((c.tc : Thread nD τ).loc main_arg7))

/-- After the whole line the result buffer holds the network's function of the arguments. -/
theorem out (c : Dev nD) : afterAll (launchContents m c) (Proc.devRef .tc main_v35) = result m c := by
  show after outputOps (after aggregateOps' (after hiddenOps (after aggregateOps (after productOps (launchContents m c)))))
    (Proc.devRef .tc main_v35) = _
  rw [Output.result, Edges.Second.aggregated, Edges.Second.keeps_arg4,
    Hidden.result, Hidden.keeps_arg4, Hidden.keeps_arg5, Hidden.keeps_arg6, Hidden.keeps_arg7,
    Edges.First.aggregated, Edges.First.keeps_arg2, Edges.First.keeps_arg3, Edges.First.keeps_arg4,
    Edges.First.keeps_arg5, Edges.First.keeps_arg6, Edges.First.keeps_arg7,
    Product.result, Product.keeps_arg2, Product.keeps_arg3, Product.keeps_arg4, Product.keeps_arg5, Product.keeps_arg6,
    Product.keeps_arg7,
    Layers.logSoftmax_eq, Layers.hidden_eq, Layers.product_eq]
  rfl

end Cert.ReferenceIdeal.Whole

end
-- ==== Proof.lean ====
/-
  A two-layer graph convolution computed by three launches, against its plain reference: both programs compute,
  over the extended reals, one function of the arguments.

  The network is: the product of the [50000, 512] feature matrix with the first weights; the aggregation of its rows
  along the 800000 weighted edges of the graph; the first bias, the rectifier and the product with the second
  weights; the aggregation again; the second bias and the log-softmax of every row. The reference runs this as
  one line of host operations. The kernel program runs the three dense stages as launches over 25 blocks of 2000
  rows each — a row of every dense stage depends on the same row of its input only, so the blocks tile the
  result — and the two aggregations as the same host operations between the launches.

  Over the extended reals every float operation is the exact one and a change of float format is the identity, so:
  a matrix unit's product into a zero accumulator and a host contraction are both the finite sum of products; a
  lane reduction and a host reduction are the same sum, the same maximum from −∞ (and a further maximum with −∞
  changes nothing); a bias vector viewed as one row and the vector set as the row of a one-row matrix are one
  array. The aggregations are the same host operations in both programs and are never opened. No law used needs
  the inputs finite: the precondition is not opened.

  The three frames: each kernel program's is its generated frame; the reference's is its run with the result
  dropped. The ideal pass rewrote nothing, so the idealization claim is trivial.
-/
import proofs.«152284_j84301618085975_1_alg».proof.Defs
import proofs.«152284_j84301618085975_1_alg».proof.Proof.Gen.Kernel
import proofs.«152284_j84301618085975_1_alg».proof.Proof.Gen.Kernel.Skeleton
import proofs.«152284_j84301618085975_1_alg».proof.Proof.Gen.Kernel.Launch
import proofs.«152284_j84301618085975_1_alg».proof.Proof.Gen.Kernel.Points
import proofs.«152284_j84301618085975_1_alg».proof.Proof.Gen.Kernel.Frame
import proofs.«152284_j84301618085975_1_alg».proof.Proof.Gen.KernelIdeal
import proofs.«152284_j84301618085975_1_alg».proof.Proof.Gen.KernelIdeal.Skeleton
import proofs.«152284_j84301618085975_1_alg».proof.Proof.Gen.KernelIdeal.Launch
import proofs.«152284_j84301618085975_1_alg».proof.Proof.Gen.KernelIdeal.Points
import proofs.«152284_j84301618085975_1_alg».proof.Proof.Gen.KernelIdeal.Frame
import proofs.«152284_j84301618085975_1_alg».proof.Proof.Gen.ReferenceIdeal
import proofs.«152284_j84301618085975_1_alg».proof.Proof.Gen.Pre_finite_inputs
import proofs.«152284_j84301618085975_1_alg».proof.Proof.KernelValue
import proofs.«152284_j84301618085975_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Staged.run (F := Ideal) m ρ)

theorem preserves : Cert.preserves_Kernel_KernelIdeal := trivial

/-- The two results, as functions of arguments that agree, are the network's function with the biases entered as
    rows in the two equal ways. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Whole.result m' c = Cert.KernelIdeal.Whole.result m c := by
  unfold Cert.ReferenceIdeal.Whole.result Cert.KernelIdeal.Whole.result
  rw [h0, h1, h2, h3, h4, h5, h6, h7]
  unfold Cert.ReferenceIdeal.Dense.biasRow256 Cert.ReferenceIdeal.Dense.biasRow64
  rw [← Cert.ReferenceIdeal.Layers.row_of_vector _ Cert.KernelIdeal.Gen.shapeCasts_S256_S1x256,
    ← Cert.ReferenceIdeal.Layers.row_of_vector _ Cert.KernelIdeal.Gen.shapeCasts_S64_S1x64]

/-- From memories that agree on the arguments both idealized programs run to the end with the result buffer at the
    network's function of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Staged.run (F := Ideal) m' ρ')
  obtain ⟨h0, h1, h2, h3, h4, h5, h6, h7⟩ := hagree c
  exact (Cert.ReferenceIdeal.Whole.out m' c).trans (results_agree m m' c h0 h1 h2 h3 h4 h5 h6 h7)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
